-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S625000 : Shape := ⟨1, ![625000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S625000 32) (main_arg2 : IVec S625000 32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S625000 : Shape := ⟨1, ![625000]⟩
abbrev S128x128 : Shape := ⟨2, ![128, 128]⟩
abbrev S128 : Shape := ⟨1, ![128]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩
abbrev S5000x128 : Shape := ⟨2, ![5000, 128]⟩

abbrev nBuf : Space → Nat
  | .hbm => 22
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S625000, .i32⟩
  | .hbm, ⟨2, _⟩ => ⟨S625000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S625000, .i32⟩
  | .hbm, ⟨7, _⟩ => ⟨S625000, .i1⟩
  | .hbm, ⟨8, _⟩ => ⟨S_, .i32⟩
  | .hbm, ⟨9, _⟩ => ⟨S625000, .i32⟩
  | .hbm, ⟨10, _⟩ => ⟨S625000, .i32⟩
  | .hbm, ⟨11, _⟩ => ⟨S625000, .i32⟩
  | .hbm, ⟨12, _⟩ => ⟨S625000x1, .i32⟩
  | .hbm, ⟨13, _⟩ => ⟨S625000x128, .f32⟩
  | .hbm, ⟨14, _⟩ => ⟨S_, .f32⟩
  | .hbm, ⟨15, _⟩ => ⟨S50000x128, .f32⟩
  | .hbm, ⟨16, _⟩ => ⟨S625000x1, .i32⟩
  | .hbm, ⟨17, _⟩ => ⟨S50000x128, .f32⟩
  | .hbm, ⟨18, _⟩ => ⟨S128x128, .f32⟩
  | .hbm, ⟨19, _⟩ => ⟨S128x128, .bf16⟩
  | .hbm, ⟨20, _⟩ => ⟨S1x128, .f32⟩
  | .hbm, ⟨21, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S625000 : Shape := ⟨1, ![625000]⟩
abbrev S128x128 : Shape := ⟨2, ![128, 128]⟩
abbrev S128 : Shape := ⟨1, ![128]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩

abbrev nBuf : Space → Nat
  | .hbm => 23
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S625000, .i32⟩
  | .hbm, ⟨2, _⟩ => ⟨S625000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S625000, .i32⟩
  | .hbm, ⟨7, _⟩ => ⟨S625000, .i1⟩
  | .hbm, ⟨8, _⟩ => ⟨S_, .i32⟩
  | .hbm, ⟨9, _⟩ => ⟨S625000, .i32⟩
  | .hbm, ⟨10, _⟩ => ⟨S625000, .i32⟩
  | .hbm, ⟨11, _⟩ => ⟨S625000, .i32⟩
  | .hbm, ⟨12, _⟩ => ⟨S625000x1, .i32⟩
  | .hbm, ⟨13, _⟩ => ⟨S625000x128, .f32⟩
  | .hbm, ⟨14, _⟩ => ⟨S_, .f32⟩
  | .hbm, ⟨15, _⟩ => ⟨S50000x128, .f32⟩
  | .hbm, ⟨16, _⟩ => ⟨S625000x1, .i32⟩
  | .hbm, ⟨17, _⟩ => ⟨S50000x128, .f32⟩
  | .hbm, ⟨18, _⟩ => ⟨S128x128, .f32⟩
  | .hbm, ⟨19, _⟩ => ⟨S50000x128, .f32⟩
  | .hbm, ⟨20, _⟩ => ⟨S1x128, .f32⟩
  | .hbm, ⟨21, _⟩ => ⟨S50000x128, .f32⟩
  | .hbm, ⟨22, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S50000x128_S128x128_S50000x128_1_0_0_1_n_n_wf : DotDims.WF S50000x128 S128x128 S50000x128 [1] [0] [0] [1] [] []

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibDotRows.lean ====
/-
  A plain matrix product, read one entry at a time, is a row against the columns.

  For a contraction of an [M, K] operand's second axis with a [K, N] operand's first axis — the dimension numbers of a
  plain matrix product — the sum over the contraction index that a matrix product denotes on the extended reals is
  the sum over k of the left operand's entry (i, k) times the right operand's entry (k, j). The lemma is stated for
  any dimension record whose four coordinate maps are the plain ones (the hypotheses), so that it applies both to a
  kernel's matrix unit over one block and to a host contraction over the whole array; what follows from it is that
  entry (i, j) depends on the left operand through its row i alone.
-/
import Idealize.ShloMosaic.PureOps.Ideal.Laws
import Idealize.ShloMosaic.Lib.ValueIdx

noncomputable section

namespace Cert.LibDotRows

open Idealize.ShloMosaic Idealize.ShloMosaic.ValueIdx

/-- The row `x` against column `q` of `w`: the sum over k of x k · w (k, q), on the extended reals. -/
def rowDot {K N : Nat} (x : Fin K → EReal) (w : (⟨2, ![K, N]⟩ : Shape).Idx → EReal) (q : Fin N) : EReal :=
  ∑ k : Fin K, x k * w (ix2 k q)

/-- The sum over a plain contraction's index is the row sum: the left operand is read along row `i 0`, the right
    operand down column `i 1`. The four hypotheses say that the record's coordinate maps are the plain ones. -/
theorem sum_contr_eq_rowDot {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (i : (⟨2, ![M, N]⟩ : Shape).Idx) :
    ∑ k : D.contr.Idx, l (D.lhsIdx i k) * r (D.rhsIdx i k) = rowDot (fun k => l (ix2 (i 0) k)) r (i 1) := by
  unfold rowDot
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

/-- Two rows that agree entry by entry have the same product with every column. -/
theorem rowDot_congr {K N : Nat} {x y : Fin K → EReal} (h : ∀ k, x k = y k) (w : (⟨2, ![K, N]⟩ : Shape).Idx → EReal) (q : Fin N) :
    rowDot x w q = rowDot y w q := by
  unfold rowDot
  exact Finset.sum_congr rfl fun k _ => by rw [h k]

end Cert.LibDotRows

end
-- ==== Proof.Linear.lean ====
/-
  A linear layer applied to every row of a matrix.

  For a matrix `a` whose rows have length 128, a 128 × 128 matrix `w` and a bias row `b`, entry (r, q) of the layer's
  result is

      (sum over k of a (r, k) · w (k, q)) + b q

  on the extended reals. Entry (r, q) depends on `a` through its row r alone, on `w` through its column q alone and
  on `b` through its entry q alone (`linear_congr`). Hence a block of consecutive rows of the result is the same layer
  applied to that block of rows of `a`: this is what lets a computation that walks the rows block by block be compared
  with one that takes the whole matrix at once. No property of the extended reals beyond the meaning of the sum is used.
-/
import proofs.«144820_j44719199486429_2_alg».proof.Proof.LibDotRows

noncomputable section

namespace Cert.Linear

open Idealize.ShloMosaic Idealize.ShloMosaic.ValueIdx Cert.LibDotRows

/-- Entry (r, q) of the layer: row r of `a` against column q of `w`, plus entry q of the bias. -/
def linear {M : Nat} (a : (⟨2, ![M, 128]⟩ : Shape).Idx → EReal) (w : (⟨2, ![128, 128]⟩ : Shape).Idx → EReal)
    (b : Fin 128 → EReal) (r : Fin M) (q : Fin 128) : EReal :=
  rowDot (fun k => a (ix2 r k)) w q + b q

/-- The transposed matrix: entry (k, q) of the transpose is entry (q, k). The layer is applied with the transpose of
    the weight matrix, so that output feature q is the input row against ROW q of the weights. -/
def transposed (w : (⟨2, ![128, 128]⟩ : Shape).Idx → EReal) : (⟨2, ![128, 128]⟩ : Shape).Idx → EReal :=
  fun i => w (ix2 (i 1) (i 0))

/-- Two layers agree at an entry as soon as the one row, the one column and the one bias entry it reads agree; the
    two matrices may have different numbers of rows. -/
theorem linear_congr {M M' : Nat} {a : (⟨2, ![M, 128]⟩ : Shape).Idx → EReal} {a' : (⟨2, ![M', 128]⟩ : Shape).Idx → EReal}
    {w w' : (⟨2, ![128, 128]⟩ : Shape).Idx → EReal} {b b' : Fin 128 → EReal} {r : Fin M} {r' : Fin M'} {q q' : Fin 128}
    (ha : ∀ k : Fin 128, a (ix2 r k) = a' (ix2 r' k)) (hw : ∀ k : Fin 128, w (ix2 k q) = w' (ix2 k q')) (hb : b q = b' q') :
    linear a w b r q = linear a' w' b' r' q' := by
  unfold linear rowDot
  rw [hb]
  refine congrArg (· + b' q') (Finset.sum_congr rfl fun k _ => ?_)
  show a (ix2 r k) * w (ix2 k q) = a' (ix2 r' k) * w' (ix2 k q')
  rw [ha k, hw k]

end Cert.Linear

end
-- ==== Proof.KernelBody.lean ====
/-
  What the kernel's body computes on one block.

  The body loads a block of 5000 rows of the aggregated features, the whole 128 × 128 transposed weight matrix and the
  1 × 128 bias row, multiplies the block by the matrix on the matrix unit starting from a zero accumulator, adds the bias
  row to every row and stores the result. Read on the extended reals, where rounding a value to a narrower float format
  changes nothing and a sum started from zero is the sum, entry (p, q) of what it stores is

      (sum over k of block (p, k) · wt (k, q)) + bias (0, q):

  the linear layer of `Linear.lean` applied to the block.
-/
import proofs.«144820_j44719199486429_2_alg».proof.Proof.Gen.KernelIdeal.Skeleton
import proofs.«144820_j44719199486429_2_alg».proof.Proof.Linear
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.LibDotRows Cert.Linear

/-! ## The matrix unit's contraction is a plain matrix product

The four coordinate maps of the body's contraction record: the left operand is read at (row of the output entry,
contraction coordinate), the right operand at (contraction coordinate, column of the output entry). -/

theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhs_contr (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k

theorem rhs_contr (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k

theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## The bias row under every row -/

/-- The 1 × 128 bias row broadcast to 5000 rows reads, at (p, q), the row's entry q. -/
theorem bias_rows (x2 : FVec Ideal S1x128 .f32) (p : Fin 5000) (q : Fin 128) :
    broadcastTo S5000x128 x2 broadcasts_S1x128_S5000x128 (ix2 p q) = x2 (ix2 0 q) :=
  broadcastTo_apply x2 broadcasts_S1x128_S5000x128 (ix2 p q) (ix2 0 q) (fun a => by
    match a with
    | ⟨0, _⟩ => rfl
    | ⟨1, _⟩ => rfl)

/-! ## The stored value at an entry -/

/-- Entry (p, q) of what the body stores is the linear layer of the loaded block, the loaded matrix and the loaded
    bias row at (p, q). -/
theorem pay_apply (x0 : FVec Ideal S5000x128 .f32) (x1 : FVec Ideal S128x128 .bf16) (x2 : FVec Ideal S1x128 .f32)
    (p : Fin 5000) (q : Fin 128) :
    k0_pay1 (F := Ideal) x0 x1 x2 (ix2 p q) = linear x0 x1 (fun q => x2 (ix2 0 q)) p q := by
  unfold k0_pay1
  rw [shapeCast_self, shapeCast_self, shapeCast_self, addf_apply, bias_rows]
  unfold matmul
  rw [Ideal.matmul_constant_zero_apply,
    sum_contr_eq_rowDot dot_S5000x128_S128x128_S5000x128_1_0_0_1_n_n rfl rfl lhs_row lhs_contr rhs_contr rhs_col]
  rfl

end Cert.KernelIdeal.Body

end
-- ==== Proof.Agg.lean ====
/-
  The aggregated features, carried as one function.

  Both programs begin in the same way: an edge's source index is wrapped by the number of nodes when it is negative, the
  source node's feature row is gathered along every edge, and the gathered rows are summed into the edges' destination
  nodes, starting from an all-zero [50000, 128] array. The operations, their dimension numbers and their literals (0, 50000
  and the float zero) are the same in the two programs, so the aggregate is named once, as one function `agg` of the
  feature array and the two index arrays, and is never opened: the comparison of the two programs only needs that both
  feed the SAME aggregate to their linear layers.
-/
import proofs.«144820_j44719199486429_2_alg».proof.Proof.Gen.KernelIdeal
import proofs.«144820_j44719199486429_2_alg».proof.Proof.Gen.ReferenceIdeal.Read

noncomputable section

namespace Cert.KernelIdeal.Agg

open Cert.KernelIdeal Cert.KernelIdeal.Facts₀ Idealize.ShloMosaic

variable {F : FTy → Type} [FloatOps F]

/-- The aggregate: the feature rows gathered at the (wrapped) source indices and summed into the destination nodes. -/
def agg (x0 : (⟨S50000x128, .f32⟩ : BufTy).Contents (Elt F)) (x1 x2 : (⟨S625000, .i32⟩ : BufTy).Contents (Elt F)) :
    (⟨S50000x128, .f32⟩ : BufTy).Contents (Elt F) :=
  Host.scatterAdd scatter_S50000x128_S625000x1_S625000x128_1_0_0_1
    (broadcastInDim S50000x128 ![] bcast_S_S50000x128 (constant S_ .f32 0x00000000#32))
    (broadcastInDim S625000x1 ![0] bcast_S625000_S625000x1_0 x2)
    (Host.gather gather_S50000x128_S625000x1_S625000x128_1_0_n_n_0_1_1128 x0
      (broadcastInDim S625000x1 ![0] bcast_S625000_S625000x1_0
        (select (cmpi .slt x1 (broadcastInDim S625000 ![] bcast_S_S625000 (constantI S_ 32 0#32)))
          (addi x1 (broadcastInDim S625000 ![] bcast_S_S625000 (constantI S_ 32 50000#32))) x1)))

/-- The reference's scatter stage is this aggregate of its own arguments: the two programs spell the same operations,
    and their dimension records have the same fields. -/
theorem ref_agg (x0 : (⟨S50000x128, .f32⟩ : BufTy).Contents (Elt F)) (x1 x2 : (⟨S625000, .i32⟩ : BufTy).Contents (Elt F)) :
    Cert.ReferenceIdeal.Read.val_main_v9 (F := F) x0 x1 x2 = agg x0 x1 x2 := rfl

end Cert.KernelIdeal.Agg

end
-- ==== Proof.KernelEntry.lean ====
/-
  What the kernel's region finds in its three operand arrays.

  Before the region the program computes, from the five arguments: the aggregate of the feature rows along the edges
  (`Agg.agg`), the transpose of the weight argument — then rounded to a narrower float format, which on the extended
  reals is the identity —, and the bias argument re-laid as a 1 × 128 row. Each is read here off the operations that
  wrote it: the first as the one function `agg` of its three arguments, the other two at an entry.
-/
import proofs.«144820_j44719199486429_2_alg».proof.Proof.Gen.KernelIdeal.Frame
import proofs.«144820_j44719199486429_2_alg».proof.Proof.Agg
import proofs.«144820_j44719199486429_2_alg».proof.Proof.Linear
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.Linear Cert.KernelIdeal.Agg

variable (m : (ℓ : Loc nD τ sig) → Buf (Elt Ideal) ℓ)

/-! ## What the region finds in its operand arrays -/

/-- The first operand array holds the aggregate of the feature argument along the two index arguments. -/
theorem entry_agg (c : Dev nD) :
    (V m c main_v9 : S50000x128.Idx → EReal)
      = agg (F := Ideal) (m ((c : Thread nD τ).loc main_arg0)) (m ((c : Thread nD τ).loc main_arg1)) (m ((c : Thread nD τ).loc main_arg2)) := by
  dsimp only [Gen.V, Gen.hostOps0]
  after_results
  rfl

/-- The second operand array holds the transpose of the weight argument: its entry (k, q) is the weights' entry (q, k). -/
theorem entry_wt (c : Dev nD) (k q : Fin 128) :
    (V m c main_v11 : S128x128.Idx → EReal) (ix2 k q) = transposed (m ((c : Thread nD τ).loc main_arg3)) (ix2 k q) := by
  have e : (V m c main_v11 : S128x128.Idx → EReal)
      = transpose S128x128 [1, 0] (m ((c : Thread nD τ).loc main_arg3)) transposes_S128x128_S128x128_1_0 := by
    dsimp only [Gen.V, Gen.hostOps0]
    after_results
    rfl
  rw [e]
  exact transpose_apply [1, 0] _ transposes_S128x128_S128x128_1_0 (ix2 k q) (ix2 q k) (fun b => match b with
    | ⟨0, _⟩ => rfl
    | ⟨1, _⟩ => rfl)

/-- The third operand array holds the bias argument as one row: its entry (0, q) is the bias' entry q. -/
theorem entry_bias (c : Dev nD) (q : Fin 128) :
    (V m c main_v12 : S1x128.Idx → EReal) (ix2 0 q) = (m ((c : Thread nD τ).loc main_arg4) : S128.Idx → EReal) (ix1 q) := by
  have e : (V m c main_v12 : S1x128.Idx → EReal)
      = shapeCast S1x128 (m ((c : Thread nD τ).loc main_arg4) : S128.Idx → EReal) shapeCasts_S128_S1x128 := by
    dsimp only [Gen.V, Gen.hostOps0]
    after_results
    rfl
  rw [e]
  refine shapeCast_apply _ shapeCasts_S128_S1x128 (ix2 0 q) (ix1 q) ?_
  rw [Shape.rowMajor_val_one, Shape.rowMajor_val_two]
  show q.val = 0 * 128 + q.val
  omega

end Cert.KernelIdeal.Entry

end
-- ==== Proof.KernelGrid.lean ====
/-
  Where the kernel's blocks lie.

  The grid has ten points. At point t the aggregate's window and the result's window are both at block t of the rows
  (5000 rows each, all 128 columns); the weight matrix and the bias row are each one whole block, the same at every
  point. These are facts about the printed index maps, decided over the ten points.
-/
import proofs.«144820_j44719199486429_2_alg».proof.Proof.Gen.KernelIdeal.Launch
import proofs.«144820_j44719199486429_2_alg».proof.Proof.Gen.KernelIdeal.Points

noncomputable section

namespace Cert.KernelIdeal.Grid

open Cert.KernelIdeal Cert.KernelIdeal.Gen Idealize.ShloMosaic Idealize.ShloMosaic.TcCoe Idealize.SL.Sem

/-- The body's loads and its store start at the origin of their buffers. -/
theorem hz : (![0, 0] : Fin 2 → Nat) = fun _ => 0 := funext fun a => by fin_cases a <;> rfl

/-- The block indices of the four windows at every grid point, decided over the ten points: the aggregate's block and
    the result's block are both block t of the rows; the weights and the bias row are the one whole block. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

end Cert.KernelIdeal.Grid

end
-- ==== Proof.KernelBlocks.lean ====
/-
  What each grid point writes back is a block of one whole-array function.

  Point t works on rows 5000·t … 5000·t + 4999: it is handed that block of the aggregated features, the whole
  transposed weight matrix and the whole bias row, and writes the same block of rows of the result. By
  `KernelBody.lean` what it writes is the linear layer of its block; a layer's entry reads one row of its matrix
  operand (`Linear.linear_congr`), and row p of block t IS row 5000·t + p of the aggregate, so what point t writes is
  block t of ONE whole-array function, `result`: the linear layer of the whole aggregate, the transposed weights and
  the bias. What the region finds in its three operand arrays is `KernelEntry.lean`'s.
-/
import proofs.«144820_j44719199486429_2_alg».proof.Proof.Gen.KernelIdeal.Value
import proofs.«144820_j44719199486429_2_alg».proof.Proof.KernelBody
import proofs.«144820_j44719199486429_2_alg».proof.Proof.KernelEntry
import proofs.«144820_j44719199486429_2_alg».proof.Proof.KernelGrid
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.Linear Cert.KernelIdeal.Agg Cert.KernelIdeal.Body Cert.KernelIdeal.Entry Cert.KernelIdeal.Grid

variable (m : (ℓ : Loc nD τ sig) → Buf (Elt Ideal) ℓ) (ρ : Dev nD → PrngReg)

/-! ## The result as one whole-array function -/

/-- The result array: the linear layer of the aggregate, the transposed weights and the bias, entry by entry. -/
def result (c : Dev nD) : S50000x128.Idx → EReal := fun i =>
  linear (agg (F := Ideal) (m ((c : Thread nD τ).loc main_arg0)) (m ((c : Thread nD τ).loc main_arg1)) (m ((c : Thread nD τ).loc main_arg2)))
    (transposed (m ((c : Thread nD τ).loc main_arg3)))
    (fun q => (m ((c : Thread nD τ).loc main_arg4) : S128.Idx → EReal) (ix1 q)) (i 0) (i 1)

/-! ## An input block is a piece of its operand array -/

/-- An input window's block at a point, read at a block index, is the operand array at the block's place in it. -/
theorem read_agg (c : Dev nD) (t : Fin cfg0.N) (y : S5000x128.Idx) :
    iblk m c 0 t y = (V m c main_v9 : S50000x128.Idx → EReal) (((cfg0.win 0).blk t).view.emb y) := rfl
theorem read_wt (c : Dev nD) (t : Fin cfg0.N) (y : S128x128.Idx) :
    iblk m c 1 t y = (V m c main_v11 : S128x128.Idx → EReal) (((cfg0.win 1).blk t).view.emb y) := rfl
theorem read_bias (c : Dev nD) (t : Fin cfg0.N) (y : S1x128.Idx) :
    iblk m c 2 t y = (V m c main_v12 : S1x128.Idx → EReal) (((cfg0.win 2).blk t).view.emb y) := rfl

/-! ## What a point writes back -/

/-- Entry (p, q) of what point t's body stores is entry (r, q) of `result`, for r the row 5000·t + p of the arrays:
    the body computes the layer on its block, and the layer at (p, q) of the block reads row p of the block — row r of
    the aggregate —, column q of the transposed weights and entry q of the bias. -/
theorem stored_entry (c : Dev nD) (t : Fin cfg0.N) (p : Fin 5000) (q : Fin 128) (r : Fin 50000)
    (hr : r.val = win0_3.index t (0 : Fin 2) * 5000 + 1 * p.val) :
    k0_pay1 (F := Ideal) (iblk m c 0 t) (iblk m c 1 t) (iblk m c 2 t) (ix2 p q) = result m c (ix2 r q) := by
  obtain ⟨e00, e01, e10, e11, e20, e21, -, -⟩ := idx_facts t
  refine (pay_apply (iblk m c 0 t) (iblk m c 1 t) (iblk m c 2 t) p q).trans ?_
  unfold result
  refine linear_congr (fun k => ?_) (fun k => ?_) ?_
  · rw [read_agg, entry_agg]
    refine congrArg (agg (F := Ideal) (m ((c : Thread nD τ).loc main_arg0)) (m ((c : Thread nD τ).loc main_arg1)) (m ((c : Thread nD τ).loc main_arg2))) (funext fun a => Fin.ext ?_)
    match a with
    | ⟨0, _⟩ => show win0_0.index t (0 : Fin 2) * 5000 + 1 * p.val = r.val; rw [e00, hr]
    | ⟨1, _⟩ => show win0_0.index t (1 : Fin 2) * 128 + 1 * k.val = k.val; rw [e01]; omega
  · rw [read_wt, ← entry_wt m c k q]
    refine congrArg (V m c main_v11 : S128x128.Idx → EReal) (funext fun a => Fin.ext ?_)
    match a with
    | ⟨0, _⟩ => show win0_1.index t (0 : Fin 2) * 128 + 1 * k.val = k.val; rw [e10]; omega
    | ⟨1, _⟩ => show win0_1.index t (1 : Fin 2) * 128 + 1 * q.val = q.val; rw [e11]; omega
  · show iblk m c 2 t (ix2 0 q) = _
    rw [read_bias, ← entry_bias m c q]
    refine congrArg (V m c main_v12 : S1x128.Idx → EReal) (funext fun a => Fin.ext ?_)
    match a with
    | ⟨0, _⟩ => show win0_2.index t (0 : Fin 2) * 1 + 1 * 0 = 0; rw [e20]
    | ⟨1, _⟩ => show win0_2.index t (1 : Fin 2) * 128 + 1 * q.val = q.val; rw [e21]; omega

/-- What point t writes back to the result array is block t of `result`. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero hz]
  simp only [View.ld_unit_zero (S := S5000x128) hz, View.ld_unit_zero (S := S128x128) hz, View.ld_unit_zero (S := S1x128) hz]
  obtain ⟨-, -, -, -, -, -, e30, e31⟩ := idx_facts t
  have ht : t.val < 10 := lt_of_lt_of_eq t.isLt (show cfg0.N = 10 from N_0)
  show (k0_pay1 (F := Ideal) (iblk m c 0 t) (iblk m c 1 t) (iblk m c 2 t) : S5000x128.Idx → EReal)
      = fun j : S5000x128.Idx => result m c (((cfg0.win 3).blk t).view.emb j)
  funext j
  obtain ⟨p, q, rfl⟩ : ∃ (p : Fin 5000) (q : Fin 128), j = ix2 p q := ⟨j 0, j 1, eq_ix2 j⟩
  have hp : p.val < 5000 := p.isLt
  refine (stored_entry m c t p q ⟨win0_3.index t (0 : Fin 2) * 5000 + 1 * p.val, by rw [e30]; omega⟩ rfl).trans ?_
  refine congrArg (result m c) (funext fun a => Fin.ext ?_)
  match a with
  | ⟨0, _⟩ => rfl
  | ⟨1, _⟩ => show q.val = win0_3.index t (1 : Fin 2) * 128 + 1 * q.val; rw [e31]; omega

end Cert.KernelIdeal.Whole

end
-- ==== Proof.KernelCover.lean ====
/-
  The ten blocks of the result tile it.

  Block t of the result array is rows 5000·t … 5000·t + 4999, all columns; the array has 50000 rows, so row r lies in
  block r / 5000, and every point writes its block back.
-/
import proofs.«144820_j44719199486429_2_alg».proof.Proof.Gen.KernelIdeal.Value
import proofs.«144820_j44719199486429_2_alg».proof.Proof.KernelGrid
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.KernelIdeal.Grid

/-- An index of the result array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v13).slice (win0_3.rect t)).set ↔ _
  rw [View.set_slice_whole, Rect.mem_set_unit]
  exact Iff.rfl

/-- Every index of the result array lies in the block of the point its row falls to: row r in block r / 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [e30, ht]; omega
  | ⟨1, _⟩ =>
    show win0_3.index t (1 : Fin 2) * 128 ≤ (i 1).val ∧ (i 1).val < win0_3.index t (1 : Fin 2) * 128 + 128
    rw [e31]; omega

end Cert.KernelIdeal.Whole

end
-- ==== Proof.KernelValue.lean ====
/-
  The kernel's result array, as one function of the arguments.

  Every grid point writes its block of `result` — the linear layer of the whole aggregate, the transposed weights and
  the bias — (`KernelBlocks.lean`), and the ten blocks tile the array (`KernelCover.lean`); so after the run the result
  array is `result` everywhere, and the program's run ends there with its five arguments unchanged.
-/
import proofs.«144820_j44719199486429_2_alg».proof.Proof.KernelBlocks
import proofs.«144820_j44719199486429_2_alg».proof.Proof.KernelCover

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- After the run the result array is `result`: every point wrote its block of it, and the blocks cover the array. -/
theorem final (c : Dev nD) : (dats m 0 c).arrAt 3 cfg0.N = result m c :=
  (dats m 0 c).arrAt_eq_of_cover 3 (result m c) (fun t _ => flushed_eq m c t) cover

/-- Every weakly fair execution of the kernel's program terminates with the result array at `result` and the five
    arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.RefValue.lean ====
/-
  The reference's result, entry by entry, is the same linear layer.

  The reference contracts the aggregate's second axis with the first axis of the transposed weight argument, broadcasts
  the bias argument to every row and adds. Read at entry i = (r, q), the contraction is the sum over k of
  aggregate (r, k) · transpose (k, q), and the broadcast bias is the bias' entry q: the linear layer of `Linear.lean`
  at (r, q), of the aggregate, the transposed weights and the bias. Nothing but the meaning of the operations is used.
-/
import proofs.«144820_j44719199486429_2_alg».proof.Proof.Gen.ReferenceIdeal.Read
import proofs.«144820_j44719199486429_2_alg».proof.Proof.Agg
import proofs.«144820_j44719199486429_2_alg».proof.Proof.Linear

noncomputable section

namespace Cert.ReferenceIdeal.RefValue

open Cert.ReferenceIdeal Cert.ReferenceIdeal.Read Idealize.ShloMosaic Idealize.ShloMosaic.ValueIdx
open Cert.Linear Cert.LibDotRows Cert.KernelIdeal.Agg

/-- The reference's result at entry `i` is the linear layer, at (i 0, i 1), of the aggregate of its first three
    arguments, the transpose of its weight argument and its bias argument. -/
theorem result_apply (x0 : (⟨S50000x128, .f32⟩ : BufTy).Contents (Elt Ideal)) (x1 x2 : (⟨S625000, .i32⟩ : BufTy).Contents (Elt Ideal))
    (x3 : (⟨S128x128, .f32⟩ : BufTy).Contents (Elt Ideal)) (x4 : (⟨S128, .f32⟩ : BufTy).Contents (Elt Ideal)) (i : S50000x128.Idx) :
    val_main_v14 (F := Ideal) x0 x1 x2 x3 x4 i
      = linear (agg (F := Ideal) x0 x1 x2) (transposed x3) (fun q => (x4 : S128.Idx → EReal) (ix1 q)) (i 0) (i 1) := by
  rw [val_main_v14_apply, val_main_v11_apply, val_main_v13_apply, val_main_v12_apply, ref_agg]
  unfold linear rowDot transposed
  refine congrArg₂ (· + ·) (Finset.sum_congr rfl fun k _ => ?_) (congrArg x4 ?_)
  · rw [val_main_v10_apply]
    refine congrArg₂ (· * ·) (congrArg (agg (F := Ideal) x0 x1 x2) ?_) (congrArg x3 ?_)
    · funext a
      match a with
      | ⟨0, _⟩ => rfl
      | ⟨1, _⟩ => rfl
    · funext a
      match a with
      | ⟨0, _⟩ => rfl
      | ⟨1, _⟩ => rfl
  · funext a
    match a with
    | ⟨0, _⟩ => rfl

end Cert.ReferenceIdeal.RefValue

end
-- ==== Proof.lean ====
/-
  The kernel and its reference compute the same function on the extended reals.

  Both programs first aggregate the feature rows along the edges: the source node's row is gathered along every edge
  (a negative source index wrapped by the number of nodes) and the gathered rows are summed into the destination
  nodes. They do it with the very same operations and literals, so that aggregate is one function `agg` of the
  feature array and the two index arrays, and is never opened (`Proof/Agg.lean`).

  The reference then applies a linear layer to the whole aggregate: entry (r, q) of its result is
  (sum over k of agg (r, k) · Wᵀ (k, q)) + b q (`Proof/RefValue.lean`, over the specification `Proof/Linear.lean`).
  The kernel transposes the weights beforehand, rounds them and the aggregate to a narrower float format — the
  identity on the extended reals — and walks the 50000 rows in ten blocks of 5000: on each block the matrix unit,
  started from zero, and the added bias row compute the same layer on that block (`Proof/KernelBody.lean`). A layer's
  entry reads a single row of its matrix operand, and row p of block t is row 5000·t + p of the aggregate, so each
  point writes its block of ONE whole-array function, and the ten blocks tile the array (`Proof/KernelValue.lean`,
  with the region's operand arrays read in `Proof/KernelEntry.lean`). The two results are therefore the same function
  of the arguments, entry by entry; only the meaning of the sums is used, no arithmetic law, so the finiteness of the
  inputs is never needed.

  The three frame claims are the generated frame runs; the idealization rewrote no operation, so there is nothing to
  preserve beyond the program's own text.
-/
import proofs.«144820_j44719199486429_2_alg».proof.Defs
import proofs.«144820_j44719199486429_2_alg».proof.Proof.Gen.Kernel
import proofs.«144820_j44719199486429_2_alg».proof.Proof.Gen.Kernel.Skeleton
import proofs.«144820_j44719199486429_2_alg».proof.Proof.Gen.Kernel.Launch
import proofs.«144820_j44719199486429_2_alg».proof.Proof.Gen.Kernel.Points
import proofs.«144820_j44719199486429_2_alg».proof.Proof.Gen.Kernel.Frame
import proofs.«144820_j44719199486429_2_alg».proof.Proof.Gen.KernelIdeal
import proofs.«144820_j44719199486429_2_alg».proof.Proof.Gen.KernelIdeal.Skeleton
import proofs.«144820_j44719199486429_2_alg».proof.Proof.Gen.KernelIdeal.Launch
import proofs.«144820_j44719199486429_2_alg».proof.Proof.Gen.KernelIdeal.Points
import proofs.«144820_j44719199486429_2_alg».proof.Proof.Gen.KernelIdeal.Frame
import proofs.«144820_j44719199486429_2_alg».proof.Proof.Gen.ReferenceIdeal
import proofs.«144820_j44719199486429_2_alg».proof.Proof.Gen.KernelIdeal.Value
import proofs.«144820_j44719199486429_2_alg».proof.Proof.Gen.ReferenceIdeal.Run
import proofs.«144820_j44719199486429_2_alg».proof.Proof.Gen.ReferenceIdeal.Read
import proofs.«144820_j44719199486429_2_alg».proof.Proof.Gen.Pre_finite_inputs
import proofs.«144820_j44719199486429_2_alg».proof.Proof.KernelValue
import proofs.«144820_j44719199486429_2_alg».proof.Proof.RefValue
import Idealize.ShloMosaic.Adequacy
import Idealize.ShloMosaic.Init

noncomputable section

namespace Cert.Proof

open Idealize.ShloMosaic Idealize.ShloMosaic.TcCoe Idealize.SL.Sem

/-- The kernel's program as printed runs, faults nowhere and leaves its arguments as they were. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference's run, its result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten for the reading on the extended reals. -/
theorem preserves : Cert.preserves_Kernel_KernelIdeal := trivial

/-- From memories that agree on the five arguments both programs end with the same result array: the linear layer of
    the aggregate, the transposed weights and the bias, entry by entry. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq _ _ _ _ _).trans ?_
  funext i
  rw [Cert.ReferenceIdeal.RefValue.result_apply, (hagree c).1, (hagree c).2.1, (hagree c).2.2.1, (hagree c).2.2.2.1,
    (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
